-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x128x1024 : Shape := ⟨3, ![256, 128, 1024]⟩
abbrev S2x256x128x1024 : Shape := ⟨4, ![2, 256, 128, 1024]⟩
abbrev S256x2 : Shape := ⟨2, ![256, 2]⟩
abbrev S_ : Shape := ⟨0, ![]⟩

class Facts : Prop where
  bcast_S_S256x128x1024 : S_.BroadcastsInDim S256x128x1024 (![] : Fin 0 → Fin S256x128x1024.rank)
  reducesTo_S256x128x1024_S_d0_1_2 : S256x128x1024.ReducesTo [0, 1, 2] S_
  h_S_ : 0 < S_.numel
  bcast_S_S2x256x128x1024 : S_.BroadcastsInDim S2x256x128x1024 (![] : Fin 0 → Fin S2x256x128x1024.rank)
  reducesTo_S2x256x128x1024_S_d0_1_2_3 : S2x256x128x1024.ReducesTo [0, 1, 2, 3] S_

variable [Facts]

def fn {F : FTy → Type} [FloatOps F] (main_arg0 : FVec F S256x128x1024 .f32) (main_arg1 : FVec F S2x256x128x1024 .f32) (main_arg2 : IVec S256x2 32) : IVec S_ 1 :=
  let main_v0 : FVec F S256x128x1024 .f32 := Host.absf main_arg0
  let main_cst : FVec F S_ .f32 := constant S_ .f32 0x7F800000#32
  let main_v1 : FVec F S256x128x1024 .f32 := broadcastInDim S256x128x1024 ![] bcast_S_S256x128x1024 main_cst
  let main_v2 : IVec S256x128x1024 1 := cmpf .olt main_v0 main_v1
  let main_c : IVec S_ 1 := constantI S_ 1 1#1
  let main_v3 : IVec S_ 1 := (fun x v => Host.reduce IntOp.andi x v reducesTo_S256x128x1024_S_d0_1_2 h_S_) main_v2 main_c
  let main_v4 : FVec F S2x256x128x1024 .f32 := Host.absf main_arg1
  let main_cst_0 : FVec F S_ .f32 := constant S_ .f32 0x7F800000#32
  let main_v5 : FVec F S2x256x128x1024 .f32 := broadcastInDim S2x256x128x1024 ![] bcast_S_S2x256x128x1024 main_cst_0
  let main_v6 : IVec S2x256x128x1024 1 := cmpf .olt main_v4 main_v5
  let main_c_1 : IVec S_ 1 := constantI S_ 1 1#1
  let main_v7 : IVec S_ 1 := (fun x v => Host.reduce IntOp.andi x v reducesTo_S2x256x128x1024_S_d0_1_2_3 h_S_) main_v6 main_c_1
  let main_v8 : IVec S_ 1 := andi main_v3 main_v7
  main_v8
-- ==== Kernel.lean ====
abbrev S256x128x1024 : Shape := ⟨3, ![256, 128, 1024]⟩
abbrev S2x256x128x1024 : Shape := ⟨4, ![2, 256, 128, 1024]⟩
abbrev S256x2 : Shape := ⟨2, ![256, 2]⟩
abbrev S256x1 : Shape := ⟨2, ![256, 1]⟩
abbrev S256 : Shape := ⟨1, ![256]⟩
abbrev S128 : Shape := ⟨1, ![128]⟩
abbrev S1x128 : Shape := ⟨2, ![1, 128]⟩
abbrev S256x128 : Shape := ⟨2, ![256, 128]⟩
abbrev S256x128x1 : Shape := ⟨3, ![256, 128, 1]⟩
abbrev S8x128x512 : Shape := ⟨3, ![8, 128, 512]⟩
abbrev S2x8x128x512 : Shape := ⟨4, ![2, 8, 128, 512]⟩
abbrev S8x128x1 : Shape := ⟨3, ![8, 128, 1]⟩
abbrev S1x8x128x512 : Shape := ⟨4, ![1, 8, 128, 512]⟩

abbrev nBuf : Space → Nat
  | .hbm => 14
  | .vmem => 8
  | .smem => 0
  | _ => 0

abbrev bufTy : (tb : Table) → Fin (tcTables nBuf tb) → BufTy
  | .hbm, ⟨0, _⟩ => ⟨S256x128x1024, .f32⟩
  | .hbm, ⟨1, _⟩ => ⟨S2x256x128x1024, .f32⟩
  | .hbm, ⟨2, _⟩ => ⟨S256x2, .i32⟩
  | .hbm, ⟨3, _⟩ => ⟨S256x1, .i32⟩
  | .hbm, ⟨4, _⟩ => ⟨S256, .i32⟩
  | .hbm, ⟨5, _⟩ => ⟨S128, .i32⟩
  | .hbm, ⟨6, _⟩ => ⟨S1x128, .i32⟩
  | .hbm, ⟨7, _⟩ => ⟨S256x1, .i32⟩
  | .hbm, ⟨8, _⟩ => ⟨S256x128, .i32⟩
  | .hbm, ⟨9, _⟩ => ⟨S256x128, .i32⟩
  | .hbm, ⟨10, _⟩ => ⟨S256x128, .i1⟩
  | .hbm, ⟨11, _⟩ => ⟨S256x128, .f32⟩
  | .hbm, ⟨12, _⟩ => ⟨S256x128x1, .f32⟩
  | .hbm, ⟨13, _⟩ => ⟨S256x128x1024, .f32⟩
  | .local _ .vmem, ⟨0, _⟩ => ⟨S8x128x512, .f32⟩
  | .local _ .vmem, ⟨1, _⟩ => ⟨S8x128x512, .f32⟩
  | .local _ .vmem, ⟨2, _⟩ => ⟨S2x8x128x512, .f32⟩
  | .local _ .vmem, ⟨3, _⟩ => ⟨S2x8x128x512, .f32⟩
  | .local _ .vmem, ⟨4, _⟩ => ⟨S8x128x1, .f32⟩
  | .local _ .vmem, ⟨5, _⟩ => ⟨S8x128x1, .f32⟩
  | .local _ .vmem, ⟨6, _⟩ => ⟨S8x128x512, .f32⟩
  | .local _ .vmem, ⟨7, _⟩ => ⟨S8x128x512, .f32⟩
  | _, _ => ⟨S256x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S8x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x8x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  slices_S256x2_S256x1_0_0 : S256x2.Slices ![0, 0] S256x1
  shapeCasts_S256x1_S256 : S256x1.ShapeCasts S256
  bcast_S128_S1x128_1 : S128.BroadcastsInDim S1x128 (![1] : Fin 1 → Fin S1x128.rank)
  bcast_S256_S256x1_0 : S256.BroadcastsInDim S256x1 (![0] : Fin 1 → Fin S256x1.rank)
  bcast_S1x128_S256x128_0_1 : S1x128.BroadcastsInDim S256x128 (![0, 1] : Fin 2 → Fin S256x128.rank)
  bcast_S256x1_S256x128_0_1 : S256x1.BroadcastsInDim S256x128 (![0, 1] : Fin 2 → Fin S256x128.rank)
  bcast_S256x128_S256x128x1_0_1 : S256x128.BroadcastsInDim S256x128x1 (![0, 1] : Fin 2 → Fin S256x128x1.rank)
  inb_S8x128x512_S8x128x512_0_0_0 : ∀ a, (![0, 0, 0] : Fin 3 → Nat) a + S8x128x512.size a ≤ S8x128x512.size a
  h_S8x128x512 : 0 < S8x128x512.numel
  inb_S2x8x128x512_S1x8x128x512_0_0_0_0 : ∀ a, (![0, 0, 0, 0] : Fin 4 → Nat) a + S1x8x128x512.size a ≤ S2x8x128x512.size a
  h_S1x8x128x512 : 0 < S1x8x128x512.numel
  shapeCasts_S1x8x128x512_S8x128x512 : S1x8x128x512.ShapeCasts S8x128x512
  inb_S2x8x128x512_S1x8x128x512_1_0_0_0 : ∀ a, (![1, 0, 0, 0] : Fin 4 → Nat) a + S1x8x128x512.size a ≤ S2x8x128x512.size a
  inb_S8x128x1_S8x128x1_0_0_0 : ∀ a, (![0, 0, 0] : Fin 3 → Nat) a + S8x128x1.size a ≤ S8x128x1.size a
  h_S8x128x1 : 0 < S8x128x1.numel
  shapeCasts_S8x128x1_S8x128x1 : S8x128x1.ShapeCasts S8x128x1
  broadcasts_S8x128x1_S8x128x512 : S8x128x1.Broadcasts S8x128x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x512.size a ≤ S256x128x1024.size a
  hwx0_0 : ∀ i : grid0.Coords, EltTy.bits .f32 = 32 ∨ (Rect.block (s := S256x128x1024) S8x128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x8x128x512.size a ≤ S2x256x128x1024.size a
  hwx0_1 : ∀ i : grid0.Coords, EltTy.bits .f32 = 32 ∨ (Rect.block (s := S2x256x128x1024) S2x8x128x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128x1.size a ≤ S256x128x1.size a
  hwx0_2 : ∀ i : grid0.Coords, EltTy.bits .f32 = 32 ∨ (Rect.block (s := S256x128x1) S8x128x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128x512.size a ≤ S256x128x1024.size a
  hwx0_3 : ∀ i : grid0.Coords, EltTy.bits .f32 = 32 ∨ (Rect.block (s := S256x128x1024) S8x128x512.size (cc0_transform_3 i) (hinb0_3 i)).WholeWords (EltTy.packing .f32)

variable [Facts₀]

abbrev win0_0 : Pipeline.Window sig grid0 :=
  Pipeline.Window.ofSpec (Memref.whole main_arg0) S8x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x8x128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S8x128x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S8x128x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S256x128x1024 : Shape := ⟨3, ![256, 128, 1024]⟩
abbrev S2x256x128x1024 : Shape := ⟨4, ![2, 256, 128, 1024]⟩
abbrev S256x2 : Shape := ⟨2, ![256, 2]⟩
abbrev S256x1 : Shape := ⟨2, ![256, 1]⟩
abbrev S256 : Shape := ⟨1, ![256]⟩
abbrev S128 : Shape := ⟨1, ![128]⟩
abbrev S1x128 : Shape := ⟨2, ![1, 128]⟩
abbrev S256x128 : Shape := ⟨2, ![256, 128]⟩
abbrev S_ : Shape := ⟨0, ![]⟩
abbrev S256x128x1 : Shape := ⟨3, ![256, 128, 1]⟩

abbrev nBuf : Space → Nat
  | .hbm => 22
  | .vmem => 0
  | .smem => 0
  | _ => 0

abbrev bufTy : (tb : Table) → Fin (tcTables nBuf tb) → BufTy
  | .hbm, ⟨0, _⟩ => ⟨S256x128x1024, .f32⟩
  | .hbm, ⟨1, _⟩ => ⟨S2x256x128x1024, .f32⟩
  | .hbm, ⟨2, _⟩ => ⟨S256x2, .i32⟩
  | .hbm, ⟨3, _⟩ => ⟨S256x1, .i32⟩
  | .hbm, ⟨4, _⟩ => ⟨S256, .i32⟩
  | .hbm, ⟨5, _⟩ => ⟨S128, .i32⟩
  | .hbm, ⟨6, _⟩ => ⟨S1x128, .i32⟩
  | .hbm, ⟨7, _⟩ => ⟨S256x1, .i32⟩
  | .hbm, ⟨8, _⟩ => ⟨S256x128, .i32⟩
  | .hbm, ⟨9, _⟩ => ⟨S256x128, .i32⟩
  | .hbm, ⟨10, _⟩ => ⟨S256x128, .i1⟩
  | .hbm, ⟨11, _⟩ => ⟨S_, .f32⟩
  | .hbm, ⟨12, _⟩ => ⟨S256x128x1024, .f32⟩
  | .hbm, ⟨13, _⟩ => ⟨S256x128x1024, .f32⟩
  | .hbm, ⟨14, _⟩ => ⟨S256x128x1, .i1⟩
  | .hbm, ⟨15, _⟩ => ⟨S_, .f32⟩
  | .hbm, ⟨16, _⟩ => ⟨S256x128x1024, .i1⟩
  | .hbm, ⟨17, _⟩ => ⟨S256x128x1024, .f32⟩
  | .hbm, ⟨18, _⟩ => ⟨S256x128x1024, .f32⟩
  | .hbm, ⟨19, _⟩ => ⟨S_, .f32⟩
  | .hbm, ⟨20, _⟩ => ⟨S256x128x1024, .f32⟩
  | .hbm, ⟨21, _⟩ => ⟨S256x128x1024, .f32⟩
  | _, _ => ⟨S256x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_v11 : Ref sig .tc := ⟨.hbm, 18, rfl⟩
abbrev main_call1_cst : Ref sig .tc := ⟨.hbm, 19, rfl⟩
abbrev main_call1_v0 : Ref sig .tc := ⟨.hbm, 20, rfl⟩
abbrev main_v12 : Ref sig .tc := ⟨.hbm, 21, rfl⟩

abbrev nD : Nat := 1
abbrev τ : Topo := Topo.v7x

variable {F : FTy → Type} [FloatOps F]

class Facts₀ : Prop where
  slices_S256x2_S256x1_0_0 : S256x2.Slices ![0, 0] S256x1
  shapeCasts_S256x1_S256 : S256x1.ShapeCasts S256
  bcast_S128_S1x128_1 : S128.BroadcastsInDim S1x128 (![1] : Fin 1 → Fin S1x128.rank)
  bcast_S256_S256x1_0 : S256.BroadcastsInDim S256x1 (![0] : Fin 1 → Fin S256x1.rank)
  bcast_S1x128_S256x128_0_1 : S1x128.BroadcastsInDim S256x128 (![0, 1] : Fin 2 → Fin S256x128.rank)
  bcast_S256x1_S256x128_0_1 : S256x1.BroadcastsInDim S256x128 (![0, 1] : Fin 2 → Fin S256x128.rank)
  reducesTo_S2x256x128x1024_S256x128x1024_d0 : S2x256x128x1024.ReducesTo [0] S256x128x1024
  h_S_ : 0 < S_.numel
  bcast_S256x128_S256x128x1_0_1 : S256x128.BroadcastsInDim S256x128x1 (![0, 1] : Fin 2 → Fin S256x128x1.rank)
  bcast_S256x128x1_S256x128x1024_0_1_2 : S256x128x1.BroadcastsInDim S256x128x1024 (![0, 1, 2] : Fin 3 → Fin S256x128x1024.rank)
  bcast_S_S256x128x1024 : S_.BroadcastsInDim S256x128x1024 (![] : Fin 0 → Fin S256x128x1024.rank)

variable [Facts₀]

class Facts : Prop extends Facts₀ where

variable [Facts]
-- ==== Proof.MaskArray.lean ====
/-
  The kernel's third operand, as the region finds it.

  Before the kernel is launched the host code builds the row mask: the validity table (row index below the graph's atom
  count, the comparison both programs compute by the same eight operations), each bit converted to the number `0` or
  `1`, with a unit feature axis appended. So the array the kernel's third window stages holds, at graph `b`, row `a`
  and feature coordinate `0`, the validity bit `(b, a)` read as a number.
-/
import proofs.«163314_j13408887898713_1_alg».proof.Proof.Gen.KernelIdeal.Frame
import proofs.«163314_j13408887898713_1_alg».proof.Proof.Gen.ReferenceIdeal.Read
import Idealize.ShloMosaic.Lib.StableHlo.Run
import Idealize.ShloMosaic.Lib.Pipeline.Value
import Idealize.ShloMosaic.Lib.ValueIdx

noncomputable section

namespace Cert.KernelIdeal.MaskArray

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The mask array at region entry is the validity table of the slice table, converted to floats and given a unit
    last axis: the host operations before the region, composed. -/
theorem mask_eq (c : Dev nD) :
    (V m c main_v9 : S256x128x1.Idx → EReal)
      = broadcastInDim S256x128x1 ![0, 1] bcast_S256x128_S256x128x1_0_1
          (uitofp (F := Ideal) .f32 (Cert.ReferenceIdeal.Read.val_main_v7 (F := Ideal) (m ((c : Thread nD τ).loc main_arg2)))) := by
  dsimp only [Gen.V, Gen.hostOps0]; after_results; rfl

/-- At graph `b`, row `a`, the mask array holds the validity bit `(b, a)` read as the number `0` or `1`. -/
theorem mask_at (c : Dev nD) (b : Fin 256) (a : Fin 128) :
    (V m c main_v9 : S256x128x1.Idx → EReal) (ix3 b a (0 : Fin 1))
      = (((Cert.ReferenceIdeal.Read.val_main_v7 (F := Ideal) (m ((c : Thread nD τ).loc main_arg2)) (ix2 b a)).toNat : ℝ) : EReal) := by
  refine (congrFun (mask_eq m c) (ix3 b a (0 : Fin 1))).trans ?_
  refine (broadcastInDim_apply _ bcast_S256x128_S256x128x1_0_1 _ (ix3 b a (0 : Fin 1)) (ix2 b a) (fun d => match d with
    | ⟨0, _⟩ => by show b.val = if (256 : Nat) = 1 then 0 else b.val; rw [if_neg (by decide)]
    | ⟨1, _⟩ => by show a.val = if (128 : Nat) = 1 then 0 else a.val; rw [if_neg (by decide)])).trans ?_
  rfl

end Cert.KernelIdeal.MaskArray

end
-- ==== Proof.MaskedRelu.lean ====
/-
  What both programs compute, with no program in sight.

  For graph `b`, atom row `a` and feature `f`, from the feature array `x`, the two residual arrays `r 0`, `r 1` and a
  one-bit validity table `v` (`v (b, a) = 1` when row `a` is one of graph `b`'s atoms):

      out (b, a, f) = max (x (b,a,f) + r (0,b,a,f) + r (1,b,a,f)) 0     when v (b, a) = 1,
      out (b, a, f) = 0                                                  when v (b, a) = 0.

  One arrangement multiplies the rectified sum by the bit read as a number (`entry`); the other selects the sum or zero
  by the bit and rectifies afterwards (`entry_eq_select`). On the extended reals the two agree at every value, the
  infinite ones included: `y * 1 = y`, `y * 0 = 0`, `max 0 0 = 0`, and addition is associative with `0` neutral.
  No finiteness is used.
-/
import Idealize.ShloMosaic.PureOps.Ideal
import Idealize.ShloMosaic.PureOps.Ideal.Laws
import Idealize.ShloMosaic.Lib.ValueIdx

noncomputable section

namespace Cert.MaskedRelu

open Idealize.ShloMosaic Idealize.ShloMosaic.ValueIdx

/-- The feature array's shape: graphs, atom rows, features. -/
abbrev Feat : Shape := ⟨3, ![256, 128, 1024]⟩
/-- The residuals' shape: two residual sets over the feature array's shape. -/
abbrev Resid : Shape := ⟨4, ![2, 256, 128, 1024]⟩
/-- The validity table's shape: one bit per graph and atom row. -/
abbrev Rows : Shape := ⟨2, ![256, 128]⟩

/-- The float zero both programs rectify against, as the word they spell it with. -/
abbrev z32 : EReal := Ideal.ofBits .f32 0x00000000#32

/-- One entry: the rectified sum of a feature entry `s` and its two residuals `t`, `u`, times the validity bit read as
    the number `0` or `1`. -/
def entry (c : BitVec 1) (s t u : EReal) : EReal := max ((s + t) + u) z32 * ((c.toNat : ℝ) : EReal)

/-- The same entry with the bit used to SELECT between the sum (the residuals summed first, from zero) and zero, rectified
    afterwards. At bit `1`: `y * 1 = y` and the sums are one sum re-associated. At bit `0`: `y * 0 = 0 = max 0 0`. -/
theorem entry_eq_select (c : BitVec 1) (s t u : EReal) :
    entry c s t u = max (Scalar.select c (s + (z32 + (t + u))) z32) z32 := by
  unfold entry
  rcases BitVec.eq_zero_or_eq_one c with rfl | rfl
  · rw [select_zero]; simp [Ideal.ofBits_zero_f32]
  · rw [select_one]; simp [Ideal.ofBits_zero_f32, add_assoc]

/-- The result at graph `b`, row `a`, feature `f`. -/
def at3 (x : Feat.Idx → EReal) (r : Resid.Idx → EReal) (v : Rows.Idx → BitVec 1)
    (b : Fin 256) (a : Fin 128) (f : Fin 1024) : EReal :=
  entry (v (ix2 b a)) (x (ix3 b a f)) (r (ix4 (0 : Fin 2) b a f)) (r (ix4 (1 : Fin 2) b a f))

/-- The whole result array as one function of the three arrays, index by index. -/
def G (x : Feat.Idx → EReal) (r : Resid.Idx → EReal) (v : Rows.Idx → BitVec 1) : Feat.Idx → EReal :=
  fun i => at3 x r v (i 0) (i 1) (i 2)

theorem G_ix3 (x : Feat.Idx → EReal) (r : Resid.Idx → EReal) (v : Rows.Idx → BitVec 1)
    (b : Fin 256) (a : Fin 128) (f : Fin 1024) : G x r v (ix3 b a f) = at3 x r v b a f := rfl

end Cert.MaskedRelu

end
-- ==== Proof.KernelValue.lean ====
/-
  From the kernel's blocks to its whole result array.

  The kernel runs on a 32 × 2 grid. At point `(i, j)` it loads block `(i, 0, j)` of the features (8 graphs, all 128
  rows, 512 features), the same block of both residual sets, and block `(i, 0, 0)` of the row mask (8 graphs, all rows,
  the unit axis), and writes block `(i, 0, j)` of the result: at block coordinate `(p, q, r)` the rectified sum of the
  feature entry and its two residuals times the mask entry `(p, q, 0)`. Every array index `(B, A, F)` lies in exactly
  the block of point `(B / 8, F / 512)`, so the array the run leaves is the specification's `G` of the features, the
  residuals and the validity table, the mask entry being the validity bit read as a number.
-/
import proofs.«163314_j13408887898713_1_alg».proof.Proof.Gen.KernelIdeal.Value
import proofs.«163314_j13408887898713_1_alg».proof.Proof.MaskArray
import proofs.«163314_j13408887898713_1_alg».proof.Proof.MaskedRelu
import Idealize.ShloMosaic.Lib.Pipeline.Value
import Idealize.ShloMosaic.Lib.ValueIdx

noncomputable section

namespace Cert.KernelIdeal.ArrayValue

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx Cert.MaskedRelu

variable (m : (ℓ : Loc nD τ sig) → Buf (Elt Ideal) ℓ) (ρ : Dev nD → PrngReg)

/-! ## One block, over any loaded values -/

/-- What the body leaves in the output block at coordinate `(p, q, r)`, for ANY contents `X0`, `X1`, `X2` of the three
    input blocks: the rectified sum of the feature entry and the two residual entries there, times the mask entry of
    the row. -/
theorem block_entry (X0 : Vec Ideal S8x128x512 .f32) (X1 : Vec Ideal S2x8x128x512 .f32) (X2 : Vec Ideal S8x128x1 .f32)
    (p : Fin 8) (q : Fin 128) (r : Fin 512) :
    out0_3 X0 X1 X2 (ix3 p q r)
      = max ((X0 (ix3 p q r) + X1 (ix4 (0 : Fin 2) p q r)) + X1 (ix4 (1 : Fin 2) p q r)) z32 * X2 (ix3 p q (0 : Fin 1)) := by
  unfold out0_3
  refine (canon3_eq (View.ld X0 r0_0) (View.ld X1 r0_1) (View.ld X1 r0_2) (View.ld X2 r0_3) (ix3 p q r)).trans ?_
  have a0 : View.ld X0 r0_0 (ix3_0 (ix3 p q r)) = X0 (ix3 p q r) :=
    congrArg X0 (funext fun d => Fin.ext (by
      match d with
      | ⟨0, _⟩ => show 0 + 1 * p.val = p.val; omega
      | ⟨1, _⟩ => show 0 + 1 * q.val = q.val; omega
      | ⟨2, _⟩ => show 0 + 1 * r.val = r.val; omega))
  have a1 : View.ld X1 r0_1 (ix3_1 (ix3 p q r)) = X1 (ix4 (0 : Fin 2) p q r) :=
    congrArg X1 (funext fun d => Fin.ext (by
      match d with
      | ⟨0, _⟩ => show 0 + 1 * 0 = 0; omega
      | ⟨1, _⟩ => show 0 + 1 * p.val = p.val; omega
      | ⟨2, _⟩ => show 0 + 1 * q.val = q.val; omega
      | ⟨3, _⟩ => show 0 + 1 * r.val = r.val; omega))
  have a2 : View.ld X1 r0_2 (ix3_2 (ix3 p q r)) = X1 (ix4 (1 : Fin 2) p q r) :=
    congrArg X1 (funext fun d => Fin.ext (by
      match d with
      | ⟨0, _⟩ => show 1 + 1 * 0 = 1; omega
      | ⟨1, _⟩ => show 0 + 1 * p.val = p.val; omega
      | ⟨2, _⟩ => show 0 + 1 * q.val = q.val; omega
      | ⟨3, _⟩ => show 0 + 1 * r.val = r.val; omega))
  have a3 : View.ld X2 r0_3 (ix3_3 (ix3 p q r)) = X2 (ix3 p q (0 : Fin 1)) :=
    congrArg X2 (funext fun d => Fin.ext (by
      match d with
      | ⟨0, _⟩ => show 0 + 1 * p.val = p.val; omega
      | ⟨1, _⟩ => show 0 + 1 * q.val = q.val; omega
      | ⟨2, _⟩ => show 0 + 1 * 0 = 0; omega))
  show max ((View.ld X0 r0_0 (ix3_0 (ix3 p q r)) + View.ld X1 r0_1 (ix3_1 (ix3 p q r)))
      + View.ld X1 r0_2 (ix3_2 (ix3 p q r))) z32 * View.ld X2 r0_3 (ix3_3 (ix3 p q r)) = _
  rw [a0, a1, a2, a3]

/-! ## The grid's index maps, decided over its 64 points -/

/-- At every point the feature window and both axes of the residual window that matter move with the result window,
    the mask window follows its graph axis only, and every other block index is zero. -/
theorem tile_facts : ∀ t : Fin cfg0.N,
    win0_0.index t (0 : Fin 3) = win0_3.index t (0 : Fin 3)
    ∧ win0_0.index t (1 : Fin 3) = 0
    ∧ win0_0.index t (2 : Fin 3) = win0_3.index t (2 : Fin 3)
    ∧ win0_1.index t (0 : Fin 4) = 0
    ∧ win0_1.index t (1 : Fin 4) = win0_3.index t (0 : Fin 3)
    ∧ win0_1.index t (2 : Fin 4) = 0
    ∧ win0_1.index t (3 : Fin 4) = win0_3.index t (2 : Fin 3)
    ∧ win0_2.index t (0 : Fin 3) = win0_3.index t (0 : Fin 3)
    ∧ win0_2.index t (1 : Fin 3) = 0
    ∧ win0_2.index t (2 : Fin 3) = 0
    ∧ win0_3.index t (1 : Fin 3) = 0 :=
  (by decide +kernel : ∀ t : Fin grid0.N, _)

/-- Every block `(i, 0, j)` of the result, `i < 32` and `j < 2`, is some point's. -/
theorem tile_onto : ∀ (i : Fin 32) (j : Fin 2), ∃ t : Fin cfg0.N, win0_3.index t = ![i.val, 0, j.val] :=
  (by decide +kernel : ∀ (i : Fin 32) (j : Fin 2), ∃ t : Fin grid0.N, win0_3.index t = ![i.val, 0, j.val])

/-! ## The input blocks at a point, read off the arrays -/

/-- The validity table of the launch memory's slice table. -/
abbrev valid (c : Dev nD) : Rows.Idx → BitVec 1 :=
  Cert.ReferenceIdeal.Read.val_main_v7 (F := Ideal) (m ((c : Thread nD τ).loc main_arg2))

/-- The array the run leaves: the specification's function of the launch memory's features, residuals and validity table. -/
abbrev result (c : Dev nD) : S256x128x1024.Idx → EReal :=
  G (m ((c : Thread nD τ).loc main_arg0)) (m ((c : Thread nD τ).loc main_arg1)) (valid m c)

/-- The feature block at point `t`, at block coordinate `(p, q, r)`, is the feature array at the array index
    `(B, A, F)` under the result block's coordinate `(p, q, r)`. -/
theorem feat_read (c : Dev nD) (t : Fin cfg0.N) (p : Fin 8) (q : Fin 128) (r : Fin 512) (B : Fin 256) (A : Fin 128) (Fq : Fin 1024)
    (hB : B.val = win0_3.index t (0 : Fin 3) * 8 + 1 * p.val) (hA : A.val = win0_3.index t (1 : Fin 3) * 128 + 1 * q.val)
    (hF : Fq.val = win0_3.index t (2 : Fin 3) * 512 + 1 * r.val) :
    iblk m c 0 t (ix3 p q r) = m ((c : Thread nD τ).loc main_arg0) (ix3 B A Fq) := by
  obtain ⟨e00, e01, e02, e10, e11, e12, e13, e20, e21, e22, e31⟩ := tile_facts t
  show V m c main_arg0 (((cfg0.win 0).blk t).view.emb (ix3 p q r)) = _
  refine (congrFun (V_main_arg0 m c) _).trans ?_
  refine congrArg _ (funext fun d => Fin.ext ?_)
  match d with
  | ⟨0, _⟩ => show win0_0.index t (0 : Fin 3) * 8 + 1 * p.val = B.val; omega
  | ⟨1, _⟩ => show win0_0.index t (1 : Fin 3) * 128 + 1 * q.val = A.val; omega
  | ⟨2, _⟩ => show win0_0.index t (2 : Fin 3) * 512 + 1 * r.val = Fq.val; omega

/-- The residual block at point `t`, at residual set `k` and block coordinate `(p, q, r)`, is the residual array at
    set `k` and the same array index `(B, A, F)`. -/
theorem resid_read (c : Dev nD) (t : Fin cfg0.N) (k : Fin 2) (p : Fin 8) (q : Fin 128) (r : Fin 512) (B : Fin 256) (A : Fin 128) (Fq : Fin 1024)
    (hB : B.val = win0_3.index t (0 : Fin 3) * 8 + 1 * p.val) (hA : A.val = win0_3.index t (1 : Fin 3) * 128 + 1 * q.val)
    (hF : Fq.val = win0_3.index t (2 : Fin 3) * 512 + 1 * r.val) :
    iblk m c 1 t (ix4 k p q r) = m ((c : Thread nD τ).loc main_arg1) (ix4 k B A Fq) := by
  obtain ⟨e00, e01, e02, e10, e11, e12, e13, e20, e21, e22, e31⟩ := tile_facts t
  show V m c main_arg1 (((cfg0.win 1).blk t).view.emb (ix4 k p q r)) = _
  refine (congrFun (V_main_arg1 m c) _).trans ?_
  refine congrArg _ (funext fun d => Fin.ext ?_)
  match d with
  | ⟨0, _⟩ => show win0_1.index t (0 : Fin 4) * 2 + 1 * k.val = k.val; omega
  | ⟨1, _⟩ => show win0_1.index t (1 : Fin 4) * 8 + 1 * p.val = B.val; omega
  | ⟨2, _⟩ => show win0_1.index t (2 : Fin 4) * 128 + 1 * q.val = A.val; omega
  | ⟨3, _⟩ => show win0_1.index t (3 : Fin 4) * 512 + 1 * r.val = Fq.val; omega

/-- The mask block at point `t`, at block coordinate `(p, q, 0)`, is the validity bit of graph `B`, row `A`, read as a
    number. -/
theorem mask_read (c : Dev nD) (t : Fin cfg0.N) (p : Fin 8) (q : Fin 128) (B : Fin 256) (A : Fin 128)
    (hB : B.val = win0_3.index t (0 : Fin 3) * 8 + 1 * p.val) (hA : A.val = win0_3.index t (1 : Fin 3) * 128 + 1 * q.val) :
    iblk m c 2 t (ix3 p q (0 : Fin 1)) = (((valid m c (ix2 B A)).toNat : ℝ) : EReal) := by
  obtain ⟨e00, e01, e02, e10, e11, e12, e13, e20, e21, e22, e31⟩ := tile_facts t
  show V m c main_v9 (((cfg0.win 2).blk t).view.emb (ix3 p q (0 : Fin 1))) = _
  have hidx : ((cfg0.win 2).blk t).view.emb (ix3 p q (0 : Fin 1)) = ix3 B A (0 : Fin 1) := by
    funext d; apply Fin.ext
    match d with
    | ⟨0, _⟩ => show win0_2.index t (0 : Fin 3) * 8 + 1 * p.val = B.val; omega
    | ⟨1, _⟩ => show win0_2.index t (1 : Fin 3) * 128 + 1 * q.val = A.val; omega
    | ⟨2, _⟩ => show win0_2.index t (2 : Fin 3) * 1 + 1 * 0 = 0; omega
  rw [hidx]
  exact MaskArray.mask_at m c B A

/-! ## What a point writes back, and the whole array -/

/-- What point `t` writes back is block `t` of the result array. -/
theorem flushed_eq (c : Dev nD) (t : Fin cfg0.N) :
    (dats m 0 c).flushed 3 t = ((cfg0.win 3).blk t).view.read (Elt Ideal) (result m c) := by
  rw [flushed3]
  funext j
  obtain ⟨p, q, r, rfl⟩ : ∃ (p : Fin 8) (q : Fin 128) (r : Fin 512), j = ix3 p q r := ⟨j 0, j 1, j 2, eq_ix3 j⟩
  obtain ⟨B, A, Fq, hI⟩ : ∃ (B : Fin 256) (A : Fin 128) (Fq : Fin 1024),
      ((cfg0.win 3).blk t).view.emb (ix3 p q r) = ix3 B A Fq := ⟨_, _, _, eq_ix3 _⟩
  have hB : B.val = win0_3.index t (0 : Fin 3) * 8 + 1 * p.val := (congrArg Fin.val (congrFun hI (0 : Fin 3))).symm
  have hA : A.val = win0_3.index t (1 : Fin 3) * 128 + 1 * q.val := (congrArg Fin.val (congrFun hI (1 : Fin 3))).symm
  have hF : Fq.val = win0_3.index t (2 : Fin 3) * 512 + 1 * r.val := (congrArg Fin.val (congrFun hI (2 : Fin 3))).symm
  show out0_3 (iblk m c 0 t) (iblk m c 1 t) (iblk m c 2 t) (ix3 p q r)
    = result m c (((cfg0.win 3).blk t).view.emb (ix3 p q r))
  rw [hI]
  refine (block_entry (iblk m c 0 t) (iblk m c 1 t) (iblk m c 2 t) p q r).trans ?_
  rw [feat_read m c t p q r B A Fq hB hA hF, resid_read m c t 0 p q r B A Fq hB hA hF,
    resid_read m c t 1 p q r B A Fq hB hA hF, mask_read m c t p q B A hB hA]
  rfl

/-- An array index is in point `t`'s block iff each coordinate is in the block's range on its axis. -/
theorem mem_blk (t : Fin cfg0.N) (i : S256x128x1024.Idx) :
    i ∈ ((cfg0.win 3).blk t).view.set ↔ ∀ a : Fin 3, win0_3.index t a * S8x128x512.size a ≤ (i a).val
      ∧ (i a).val < win0_3.index t a * S8x128x512.size a + S8x128x512.size a := by
  show i ∈ ((View.whole main_v10).slice (win0_3.rect t)).set ↔ _
  rw [View.set_slice_whole, Rect.mem_set_unit]
  exact Iff.rfl

/-- Every array index `(B, A, F)` is in the block of the point with block index `(B / 8, 0, F / 512)`. -/
theorem covered (i : S256x128x1024.Idx) :
    ∃ t : Fin cfg0.N, (cfg0.win 3).flush t = true ∧ i ∈ ((cfg0.win 3).blk t).view.set := by
  have hi0 : (i 0).val < 256 := (i 0).isLt
  have hi1 : (i 1).val < 128 := (i 1).isLt
  have hi2 : (i 2).val < 1024 := (i 2).isLt
  obtain ⟨t, ht⟩ := tile_onto ⟨(i 0).val / 8, by omega⟩ ⟨(i 2).val / 512, by omega⟩
  have q0 : win0_3.index t (0 : Fin 3) = (i 0).val / 8 := congrFun ht 0
  have q1 : win0_3.index t (1 : Fin 3) = 0 := congrFun ht 1
  have q2 : win0_3.index t (2 : Fin 3) = (i 2).val / 512 := congrFun ht 2
  refine ⟨t, flush0_3 t, ?_⟩
  rw [mem_blk]
  intro a
  match a with
  | ⟨0, _⟩ => show win0_3.index t (0 : Fin 3) * 8 ≤ (i 0).val ∧ (i 0).val < win0_3.index t (0 : Fin 3) * 8 + 8; omega
  | ⟨1, _⟩ => show win0_3.index t (1 : Fin 3) * 128 ≤ (i 1).val ∧ (i 1).val < win0_3.index t (1 : Fin 3) * 128 + 128; omega
  | ⟨2, _⟩ => show win0_3.index t (2 : Fin 3) * 512 ≤ (i 2).val ∧ (i 2).val < win0_3.index t (2 : Fin 3) * 512 + 512; omega

/-- The array after the run is the result array. -/
theorem final (c : Dev nD) : (dats m 0 c).arrAt 3 cfg0.N = result m c :=
  (dats m 0 c).arrAt_eq_of_cover 3 (result m c) (fun t _ => flushed_eq m c t) covered

/-- The kernel's run: every weakly fair execution terminates with the result buffer at `G` of the launch memory's
    features, residuals and validity table, the arguments unchanged. -/
theorem run : θ_run defs (onTc (τ := τ) (main (F := Ideal))) ⟨m, fun _ => 0, ρ⟩ fun r => ∀ c : Dev nD,
      r.2.mem ((c : Thread nD τ).loc main_v10) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.ArrayValue

end
-- ==== Proof.ReferenceValue.lean ====
/-
  The reference's result is the specification's function of its three arguments.

  Read one operation at a time, the reference's entry at graph `b`, row `a`, feature `f` is
  `max (select v(b,a) (x(b,a,f) + (0 + (r(0,b,a,f) + r(1,b,a,f)))) 0) 0`: the residuals summed from zero over their
  leading axis, added to the feature entry, zeroed where the row is not an atom of the graph, then rectified.
  The validity bit `v(b,a)` is the signed comparison "row index below the graph's atom count", which the host code
  computes by the same eight operations in both programs; it stays one closed function of the slice table here
  (`validRows`). The selecting arrangement equals the multiplying one by `MaskedRelu.entry_eq_select`.
-/
import proofs.«163314_j13408887898713_1_alg».proof.Proof.Gen.ReferenceIdeal.Read
import proofs.«163314_j13408887898713_1_alg».proof.Proof.MaskedRelu
import Idealize.ShloMosaic.Lib.ValueIdx

noncomputable section

namespace Cert.ReferenceIdeal.RefValue

open Cert.ReferenceIdeal Cert.ReferenceIdeal.Read Idealize.ShloMosaic Idealize.ShloMosaic.ValueIdx Cert.MaskedRelu

/-- The validity table as a function of the slice table: bit `(b, a)` says whether `a`, as a signed word, is below the
    graph's atom count `mol_slice (b, 0)`. -/
abbrev validRows (x2 : (⟨S256x2, .i32⟩ : BufTy).Contents (Elt Ideal)) : Rows.Idx → BitVec 1 :=
  val_main_v7 (F := Ideal) x2

/-- The reference's result array is `G` of the features, the residuals and the validity table. -/
theorem reference_eq (x0 : (⟨S256x128x1024, .f32⟩ : BufTy).Contents (Elt Ideal))
    (x1 : (⟨S2x256x128x1024, .f32⟩ : BufTy).Contents (Elt Ideal)) (x2 : (⟨S256x2, .i32⟩ : BufTy).Contents (Elt Ideal)) :
    val_main_v12 (F := Ideal) x0 x1 x2 = G x0 x1 (validRows x2) := by
  funext i
  obtain ⟨b, a, f, rfl⟩ : ∃ (b : Fin 256) (a : Fin 128) (f : Fin 1024), i = ix3 b a f := ⟨i 0, i 1, i 2, eq_ix3 i⟩
  rw [G_ix3]
  unfold at3
  rw [entry_eq_select]
  rw [val_main_v12_apply, val_main_v11_apply, val_main_call0_v0_apply, val_main_v10_apply, val_main_v9_apply,
    val_main_v8_apply, val_main_call0_v1_apply, val_main_cst_0_apply, val_main_call1_v0_apply,
    val_main_call1_cst_apply, val_main_cst_apply, Fin.sum_univ_two]
  have e0 : idx_main_v8 (ix3 b a f) (0 : Fin 2) = ix4 (0 : Fin 2) b a f :=
    funext fun d => Fin.ext (by match d with | ⟨0, _⟩ => rfl | ⟨1, _⟩ => rfl | ⟨2, _⟩ => rfl | ⟨3, _⟩ => rfl)
  have e1 : idx_main_v8 (ix3 b a f) (1 : Fin 2) = ix4 (1 : Fin 2) b a f :=
    funext fun d => Fin.ext (by match d with | ⟨0, _⟩ => rfl | ⟨1, _⟩ => rfl | ⟨2, _⟩ => rfl | ⟨3, _⟩ => rfl)
  have e2 : idx_main_v10 (idx_main_call0_v0 (ix3 b a f)) = ix2 b a :=
    funext fun d => Fin.ext (by match d with | ⟨0, _⟩ => rfl | ⟨1, _⟩ => rfl)
  rw [e0, e1, e2]
  rfl

end Cert.ReferenceIdeal.RefValue

end
-- ==== Proof.lean ====
/-
  The masked, rectified residual sum: a tiled kernel against its array-level reference, equal on the extended reals.

  For every graph `b`, atom row `a` and feature `f` both programs produce

      out (b, a, f) = max (x (b,a,f) + r (0,b,a,f) + r (1,b,a,f)) 0   if row `a` is one of graph `b`'s atoms,   0 otherwise,

  where "row `a` is an atom of graph `b`" is the signed comparison of `a` with the atom count in the first column of
  the slice table (both programs compute this bit by the same host operations).
  • The kernel tiles the arrays into blocks of 8 graphs × 128 rows × 512 features over a 32 × 2 grid; each point adds the
    feature block and the two residual blocks, rectifies, and multiplies by the row mask (the bit as the number 0 or 1).
    Its blocks tile the result, so the result array is the specification's `G` (Proof/KernelValue.lean, over the mask
    array read in Proof/MaskArray.lean).
  • The reference sums the residuals from zero, adds the features, selects the sum or zero by the bit, and rectifies:
    the same `G` (Proof/ReferenceValue.lean), by the law `max y 0 * bit = max (select bit y 0) 0` on the extended reals
    (Proof/MaskedRelu.lean), which holds at every value, so the finiteness precondition is never opened.
  The three frame claims are the generated frame runs; the idealization rewrote nothing, so `preserves` is trivial.
-/
import proofs.«163314_j13408887898713_1_alg».proof.Defs
import proofs.«163314_j13408887898713_1_alg».proof.Proof.Gen.Kernel
import proofs.«163314_j13408887898713_1_alg».proof.Proof.Gen.Kernel.Frame
import proofs.«163314_j13408887898713_1_alg».proof.Proof.Gen.KernelIdeal
import proofs.«163314_j13408887898713_1_alg».proof.Proof.Gen.KernelIdeal.Frame
import proofs.«163314_j13408887898713_1_alg».proof.Proof.Gen.KernelIdeal.Value
import proofs.«163314_j13408887898713_1_alg».proof.Proof.Gen.ReferenceIdeal
import proofs.«163314_j13408887898713_1_alg».proof.Proof.Gen.ReferenceIdeal.Run
import proofs.«163314_j13408887898713_1_alg».proof.Proof.Gen.ReferenceIdeal.Read
import proofs.«163314_j13408887898713_1_alg».proof.Proof.Gen.Pre_finite_inputs
import proofs.«163314_j13408887898713_1_alg».proof.Proof.KernelValue
import proofs.«163314_j13408887898713_1_alg».proof.Proof.ReferenceValue
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference has no kernel: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the three arguments both programs end with the result buffer at `G` of the features, the
    residuals and the validity table of the slice table. -/
theorem algebraic : Cert.algebraic_KernelIdeal_ReferenceIdeal := by
  intro m ρ m' ρ' _ hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.RefValue.reference_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
